-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S1x1x2048x2048 : Shape := ⟨4, ![1, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S1x1x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S1x1x2048x2048 : Shape := ⟨4, ![1, 1, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i1⟩
  | .hbm, ⟨4, _⟩ => ⟨S1x1x2048x2048, .i32⟩
  | .hbm, ⟨5, _⟩ => ⟨S2x16x2048x64, .f32⟩
  | .hbm, ⟨6, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x2048, .i32⟩
  | .local _ .vmem, ⟨7, _⟩ => ⟨S1x1x512x64, .f32⟩
  | .local _ .vmem, ⟨8, _⟩ => ⟨S1x1x512x64, .f32⟩
  | .local _ .vmem, ⟨9, _⟩ => ⟨S1x1x512x2048, .f32⟩
  | .local _ .vmem, ⟨10, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 4], ![false, false, false]⟩

def k0_mult1 (i : grid0.Coords) : BitVec 32 :=
  let arg2 : BitVec 32 := BitVec.ofNat 32 (i 2).val
  let c512_i32 : BitVec 32 := 512#32
  let v6 : BitVec 32 := Scalar.muli arg2 c512_i32
  v6
def k0_off1 (i : grid0.Coords) : Fin 4 → Nat :=
  let c0_11 : Index := 0#32
  let c0_12 : Index := 0#32
  let arg2 : BitVec 32 := BitVec.ofNat 32 (i 2).val
  let c512_i32 : BitVec 32 := 512#32
  let v6 : BitVec 32 := Scalar.muli arg2 c512_i32
  let v7 : BitVec 32 := v6
  let v8 : Index := Scalar.indexCast v7
  let c0_13 : Index := 0#32
  ![0, 0, v8.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x2048x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  h_S1x1x512x2048 : 0 < S1x1x512x2048.numel
  shapeCasts_S1x1x512x2048_S512x2048 : S1x1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 8 ∣ (k0_mult1 i).toNat
  k0_off1_inb : ∀ i : grid0.Coords, ∀ a, (k0_off1 i) a + S1x1x512x2048.size a ≤ S1x1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048x2048.size a ≤ S1x1x2048x2048.size a
  hwx0_3 : ∀ i : grid0.Coords, EltTy.bits .i32 = 32 ∨ (Rect.block (s := S1x1x2048x2048) S1x1x2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S1x1x2048x2048 : Shape := ⟨4, ![1, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048x2048, .i1⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What the body leaves in its two output blocks, as values of its input blocks.

  The body stores each output block once, whole: the `[1, 1, 512, 2048]` attention tile and the `[1, 1, 512, 64]` output
  tile. The run of the body records those stores as pieces; read back, each block is its one store's value, a pure
  function of the blocks the body loaded: the query block, the key block, the value block, and the 512 rows of the
  resident `[1, 1, 2048, 2048]` mask block that start at the point's row offset. (The body also loads its own output
  buffers before storing to them; those loads feed nothing.)
-/
import proofs.«178960_j32409823216264_2_alg».proof.Proof.Gen.KernelIdeal.Frame
import Idealize.ShloMosaic.Lib.Pipeline.Value
import Idealize.ShloMosaic.Lib.Tactic

noncomputable section

namespace Cert.Attention.Pieces

open Cert.KernelIdeal Cert.KernelIdeal.Gen
open Idealize.ShloMosaic Idealize.ShloMosaic.TcCoe Idealize.SL.Sem Idealize.ShloMosaic.Tactic

variable {F : FTy → Type} [FloatOps F]

theorem zeroOffsets : (![0, 0, 0, 0] : Fin 4 → Nat) = fun _ => 0 := funext fun a => by fin_cases a <;> rfl

/-- The rows of the resident mask block that belong to the point's queries: 512 rows from the point's row offset. -/
abbrev maskRows (i : grid0.Coords) (x3 : Vec F S1x1x2048x2048 .i32) : Vec F S1x1x512x2048 .i32 :=
  View.ld x3 (Rect.unit (s := S1x1x2048x2048) (k0_off1 i) S1x1x512x2048.size (k0_off1_inb i))

/-- The attention block after the body: the attention tile of the query block, the key block and the point's mask rows. -/
theorem attnBlock (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .i32) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .f32) (x1 : Vec F S1x1x2048x64 .f32) (x2 : Vec F S1x1x2048x64 .f32) (x3 : Vec F S1x1x2048x2048 .i32) :
    out0_A_5 c i arg3 harg3 arg4 harg4 arg5 harg5 arg6 harg6 arg7 harg7 arg8 harg8 x0 x1 x2 x3 = k0_pay4 x0 x1 (maskRows i x3) := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  sl_unfold_words
  rw [View.canon_unit_zero zeroOffsets]
  simp only [View.readAt_eq_ld, harg3.read_unread, harg4.read_unread, harg5.read_unread, harg6.read_unread,
    View.ld_unit_zero (S := S1x1x512x64) zeroOffsets, View.ld_unit_zero (S := S1x1x2048x64) zeroOffsets]
  rfl

/-- The output block after the body: the attention tile applied to the value block. -/
theorem outBlock (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .i32) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .f32) (x1 : Vec F S1x1x2048x64 .f32) (x2 : Vec F S1x1x2048x64 .f32) (x3 : Vec F S1x1x2048x2048 .i32) :
    out0_A_4 c i arg3 harg3 arg4 harg4 arg5 harg5 arg6 harg6 arg7 harg7 arg8 harg8 x0 x1 x2 x3 = k0_pay1 (k0_pay2 x2) (k0_pay3 x0 x1 (maskRows i x3)) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero zeroOffsets]
  simp only [View.readAt_eq_ld, harg3.read_unread, harg4.read_unread, harg5.read_unread, harg6.read_unread,
    View.ld_unit_zero (S := S1x1x512x64) zeroOffsets, View.ld_unit_zero (S := S1x1x2048x64) zeroOffsets]
  rfl

end Cert.Attention.Pieces

end
-- ==== Proof.Spec.lean ====
/-
  Masked softmax attention over the extended reals: the one function both programs compute.

  For a batch `b`, a head `h` and a query row `q`:

    s(k)   = -1e9                         where the mask bit at (q, k) is set,
           = (∑_d Q[b,h,q,d] · K[b,h,k,d]) · (1/8)   elsewhere                     (a row of 2048 scores)
    p(k)   = exp(s(k) − max_j s(j)) / ∑_j exp(s(j) − max_j s(j))                   (the row's softmax)
    o(d)   = ∑_k p(k) · V[b,h,k,d]                                                 (the row of the output)

  The program returns `o` as a `[2,16,2048,64]` array and `p` as a `[2,16,2048,2048]` array. The definitions below state
  the three steps over plain rows (functions of a coordinate), so that they can be read both at a tile of the kernel and at
  the whole arrays of the reference, and then assemble the two result arrays index by index. The `1/8`, the fill and the
  start of the maximum are kept as the words the programs spell. The maximum is the fold of `max` from `-∞` over the
  row, the sums are plain finite sums, the quotient is the extended reals' division with its conventions at zero and at
  the infinities: nothing here needs the entries to be finite.
-/
import Idealize.ShloMosaic.PureOps.Ideal
import Idealize.ShloMosaic.Lib.ValueIdx

noncomputable section

open scoped BigOperators

namespace Cert.Attention

open Idealize.ShloMosaic Idealize.ShloMosaic.ValueIdx

/-- The row of scaled, masked scores of one query row `q : Fin e → EReal` against the keys `K : Fin n → Fin e → EReal`:
    where the row's mask bit is set, the fill word `-1e9`; elsewhere the inner product times the word of `0.125`. -/
def scoreRow {n e : ℕ} (q : Fin e → EReal) (K : Fin n → Fin e → EReal) (mask : Fin n → BitVec 1) : Fin n → EReal :=
  fun k => Scalar.select (mask k) (Ideal.ofBits .f32 0xCE6E6B28#32)
    ((∑ d : Fin e, q d * K k d) * Ideal.ofBits .f32 0x3E000000#32)

/-- The maximum of a row, as the fold of `max` from the word of `-∞`. -/
def rowMax {n : ℕ} (s : Fin n → EReal) : EReal :=
  (Finset.univ : Finset (Fin n)).fold max (Ideal.ofBits .f32 0xFF800000#32) s

/-- The shifted exponentials of a row: `exp (s k − max s)`. -/
def expRow {n : ℕ} (s : Fin n → EReal) : Fin n → EReal := fun k => Ideal.exp (s k - rowMax s)

/-- The softmax of a row: each shifted exponential over their sum. -/
def softmaxRow {n : ℕ} (s : Fin n → EReal) : Fin n → EReal :=
  fun k => Ideal.div (expRow s k) (∑ j : Fin n, expRow s j)

/-- A row of weights applied to the values `V : Fin n → Fin e → EReal`: `∑_k p k · V k d`. -/
def mixRow {n e : ℕ} (p : Fin n → EReal) (V : Fin n → Fin e → EReal) : Fin e → EReal :=
  fun d => ∑ k : Fin n, p k * V k d

section Arrays

variable (Q K V : (⟨4, ![2, 16, 2048, 64]⟩ : Shape).Idx → EReal)
variable (M : (⟨4, ![1, 1, 2048, 2048]⟩ : Shape).Idx → BitVec 1)

/-- The scores of query row `(b, h, q)` of the arrays: the mask is shared by every batch and head. -/
def scores (b : Fin 2) (h : Fin 16) (q : Fin 2048) : Fin 2048 → EReal :=
  scoreRow (fun d : Fin 64 => Q (ix4 b h q d)) (fun (k : Fin 2048) (d : Fin 64) => K (ix4 b h k d))
    (fun k : Fin 2048 => M (ix4 (0 : Fin 1) (0 : Fin 1) q k))

/-- The attention weights at `(b, h, q, k)`. -/
def probAt (b : Fin 2) (h : Fin 16) (q k : Fin 2048) : EReal := softmaxRow (scores Q K M b h q) k

/-- The output at `(b, h, q, d)`. -/
def outAt (b : Fin 2) (h : Fin 16) (q : Fin 2048) (d : Fin 64) : EReal :=
  mixRow (softmaxRow (scores Q K M b h q)) (fun (k : Fin 2048) (d : Fin 64) => V (ix4 b h k d)) d

/-- The `[2,16,2048,2048]` array of attention weights. -/
def probs : (⟨4, ![2, 16, 2048, 2048]⟩ : Shape).Idx → EReal := fun i => probAt Q K M (i 0) (i 1) (i 2) (i 3)

/-- The `[2,16,2048,64]` array of outputs. -/
def outs : (⟨4, ![2, 16, 2048, 64]⟩ : Shape).Idx → EReal := fun i => outAt Q K V M (i 0) (i 1) (i 2) (i 3)

theorem probs_ix4 (b : Fin 2) (h : Fin 16) (q k : Fin 2048) : probs Q K M (ix4 b h q k) = probAt Q K M b h q k := rfl

theorem outs_ix4 (b : Fin 2) (h : Fin 16) (q : Fin 2048) (d : Fin 64) :
    outs Q K V M (ix4 b h q d) = outAt Q K V M b h q d := rfl

end Arrays

end Cert.Attention

end
-- ==== Proof.LibRowMax.lean ====
/-
  A maximum along the rows of a matrix, read at a row.

  A kernel that takes the maximum of an `[a, b]` block along its second axis (the per-row maximum a numerically stable
  softmax subtracts) gets an `[a]` vector whose entry `p` is the maximum over `k` of the block at `(p, k)`, started from
  the accumulator's word. Maximum on the extended reals commutes and associates, so the order of the reduction does not
  matter and the entry is the fold of `max` over the row's coordinates. The lemma says so for any extents, with the indices
  written by coordinates, for a single-precision reduction started from the word of `-∞`; a second lemma says the same of
  a host reduction over the last axis of a rank-4 array, the reference's spelling of the same row maximum.
-/
import Idealize.ShloMosaic.PureOps.Ideal.Laws
import Idealize.ShloMosaic.Lib.ValueIdx

noncomputable section

namespace Cert.RowMax

open Idealize.ShloMosaic Idealize.ShloMosaic.ValueIdx

/-- An `[a, b]` array of single-precision values reduced by maximum along its second axis into `[a]`, starting from the
    word of `-∞`, reads at `p` the fold of `max`, from that word's value, over `k : Fin b` of the array at `(p, k)`. The
    hypothesis on the start word is typed as a printed program spells its proof (the word equal to itself). -/
theorem multiReduction_max_rows_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (fun f => Finset.fold max (Ideal.ofBits .f32 0xFF800000#32) f (Finset.univ : Finset (Fin b))) ?_
  exact funext fun k => congrArg v (funext fun c => Fin.ext (by
    match c with
    | ⟨0, _⟩ => rfl
    | ⟨1, _⟩ => rfl))

/-- The host's reduction by maximum over the LAST axis of an `[a, b, c, d]` array, from a scalar initial value, reads at
    `(p, q, r)` the fold of `max`, from the initial value, over `k : Fin d` of the array at `(p, q, r, k)`. -/
theorem hostReduce_max_last4_apply {a b c d : ℕ} (x : FVec Ideal ⟨4, ![a, b, c, d]⟩ .f32)
    (init : FVec Ideal ⟨0, ![]⟩ .f32)
    (h' : (⟨4, ![a, b, c, d]⟩ : Shape).ReducesTo [3] ⟨3, ![a, b, c]⟩)
    (h : (⟨4, ![a, b, c, d]⟩ : Shape).Reduces [3] ⟨3, ![a, b, c]⟩) (hu : 0 < (⟨0, ![]⟩ : Shape).numel)
    (p : Fin a) (q : Fin b) (r : Fin c) :
    Host.reduce FloatOps.maximumf x init h' hu (ix3 p q r)
      = (Finset.univ : Finset (Fin d)).fold max (init (Shape.Idx.first hu)) (fun k => x (ix4 p q r k)) := by
  refine (Host.reduce_eq_fold_single FloatOps.maximumf x init h' h hu (ix3 p q r)).trans ?_
  refine congrArg (fun f => Finset.fold max (init (Shape.Idx.first hu)) f (Finset.univ : Finset (Fin d))) ?_
  exact funext fun k => congrArg x (funext fun e => Fin.ext (by
    match e with
    | ⟨0, _⟩ => rfl
    | ⟨1, _⟩ => rfl
    | ⟨2, _⟩ => rfl
    | ⟨3, _⟩ => rfl))

end Cert.RowMax

end
-- ==== Proof.LibRowSums.lean ====
/-
  A sum along the rows of a matrix, read at a row.

  A kernel that reduces a `[a, b]` block along its second axis (a per-row sum: the numerator of a row mean, of a row
  variance, of a row norm) gets an `[a]` vector whose entry `p` is the sum over `k` of the block at `(p, k)`. The lemma
  says so for any extents, with the indices written by coordinates, for a single-precision sum started from the zero
  word.
-/
import Idealize.ShloMosaic.PureOps.Ideal.Laws
import Idealize.ShloMosaic.Lib.ValueIdx

noncomputable section

open scoped BigOperators

namespace Cert.RowSums

open Idealize.ShloMosaic Idealize.ShloMosaic.ValueIdx

/-- An `[a, b]` array of single-precision values summed along its second axis into `[a]`, starting from the zero word,
    reads at `p` the sum over `k : Fin b` of the array at `(p, k)`. The hypothesis on the start word is typed as a printed
    program spells its proof (the word equal to itself). -/
theorem multiReduction_add_rows_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (funext fun c => Fin.ext (by
    match c with
    | ⟨0, _⟩ => rfl
    | ⟨1, _⟩ => rfl))

end Cert.RowSums

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.LibBlockLayouts.lean ====
/-
  Casts through two LEADING unit axes, read at an index written by coordinates.

  A kernel whose blocks are `[1, 1, a, b]` slabs of a rank-4 array works on them as `[a, b]` matrices: it casts each
  loaded block `[1, 1, a, b] → [a, b]` and each result back `[a, b] → [1, 1, a, b]`. Both casts keep the row-major
  position, so the matrix entry `(i, j)` is the slab entry `(0, 0, i, j)`. The two lemmas say so for any extents.
-/
import Idealize.ShloMosaic.Lib.Pipeline.Value
import Idealize.ShloMosaic.Lib.ValueIdx

noncomputable section

namespace Cert.BlockLayouts

open Idealize.ShloMosaic Idealize.ShloMosaic.ValueIdx

variable {α : Type}

/-- A `[1, 1, a, b]` slab cast to the matrix `[a, b]` reads, at `(i, j)`, the slab at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (⟨0, Nat.one_pos⟩ : Fin 1) (⟨0, Nat.one_pos⟩ : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix `[a, b]` cast to the slab `[1, 1, a, b]` reads, at `(u, v, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

end Cert.BlockLayouts

end
-- ==== Proof.TileValue.lean ====
/-
  One grid point of the kernel computes the specification on its tile.

  At a grid point the kernel holds a `[512, 64]` block of queries, the `[2048, 64]` keys and values of its batch and head,
  and the `[512, 2048]` rows of the mask that belong to its queries. Its body forms the `[512, 2048]` tile of scores by a
  matrix product contracted over the 64 features, scales it, fills the masked entries, subtracts each row's maximum,
  exponentiates, divides by each row's sum, stores that tile, and multiplies it into the values.

  Read at a row `r` of the tile these are exactly the row functions of the specification: the matrix product at `(r, c)` is
  the inner product of query row `r` with key row `c`; the row maximum and the row sum, kept as columns `[512, 1]` and
  spread back over the row, are the fold of `max` and the sum over the row; the second product at `(r, d)` is the row of
  weights applied to column `d` of the values. The changes of float format on the way into the products are the identity
  on extended reals.
-/
import proofs.«178960_j32409823216264_2_alg».proof.Proof.Gen.KernelIdeal.Skeleton
import proofs.«178960_j32409823216264_2_alg».proof.Proof.Spec
import proofs.«178960_j32409823216264_2_alg».proof.Proof.LibRowMax
import proofs.«178960_j32409823216264_2_alg».proof.Proof.LibRowSums
import proofs.«178960_j32409823216264_2_alg».proof.Proof.LibColumnLayouts
import proofs.«178960_j32409823216264_2_alg».proof.Proof.LibBlockLayouts
import Idealize.ShloMosaic.PureOps.Ideal.Laws
import Idealize.ShloMosaic.Lib.ValueIdx

noncomputable section

open scoped BigOperators

namespace Cert.Attention.Tile

open Cert.KernelIdeal Cert.KernelIdeal.Gen Cert.Attention
open Idealize.ShloMosaic Idealize.ShloMosaic.ValueIdx

/-! ## The softmax of a tile of scores -/

/-- A `[512]` vector kept as a column and spread over the rows of the tile reads, at `(r, c)`, its entry `r`. -/
theorem column_apply (v : FVec Ideal S512 .f32) (r : Fin 512) (c : Fin 2048) :
    broadcastTo S512x2048 (shapeCast S512x1 v shapeCasts_S512_S512x1) broadcasts_S512x1_S512x2048 (ix2 r c) = v (ix1 r) :=
  (Cert.ColumnLayouts.broadcastTo_a1_ab_apply _ broadcasts_S512x1_S512x2048 r c).trans
    (Cert.ColumnLayouts.shapeCast_a_a1_apply v shapeCasts_S512_S512x1 r (0 : Fin 1))

/-- The row maxima of a tile, spread back over the tile. -/
def maxTile (s : FVec Ideal S512x2048 .f32) : FVec Ideal S512x2048 .f32 :=
  broadcastTo S512x2048 (shapeCast S512x1
    (multiReduction .maximumf [1] S512 s 0xFF800000#32 reduces_S512x2048_S512 (.inl rfl) rfl)
    shapeCasts_S512_S512x1) broadcasts_S512x1_S512x2048

/-- The shifted exponentials of a tile. -/
def expTile (s : FVec Ideal S512x2048 .f32) : FVec Ideal S512x2048 .f32 := exp (subf s (maxTile s))

/-- The row sums of a tile, spread back over the tile. -/
def sumTile (e : FVec Ideal S512x2048 .f32) : FVec Ideal S512x2048 .f32 :=
  broadcastTo S512x2048 (shapeCast S512x1
    (multiReduction .add [1] S512 e 0x00000000#32 reduces_S512x2048_S512 (.inl rfl) rfl)
    shapeCasts_S512_S512x1) broadcasts_S512x1_S512x2048

/-- The softmax of a tile, row by row, as the body spells it. -/
def softmaxTile (s : FVec Ideal S512x2048 .f32) : FVec Ideal S512x2048 .f32 :=
  divf (expTile s) (sumTile (expTile s))

theorem maxTile_apply (s : FVec Ideal S512x2048 .f32) (r : Fin 512) (c : Fin 2048) :
    maxTile s (ix2 r c) = rowMax (fun k : Fin 2048 => s (ix2 r k)) :=
  (column_apply _ r c).trans (Cert.RowMax.multiReduction_max_rows_apply s reduces_S512x2048_S512 (.inl rfl) rfl r)

theorem expTile_apply (s : FVec Ideal S512x2048 .f32) (r : Fin 512) (c : Fin 2048) :
    expTile s (ix2 r c) = expRow (fun k : Fin 2048 => s (ix2 r k)) c := by
  show Ideal.exp (s (ix2 r c) - maxTile s (ix2 r c)) = _
  rw [maxTile_apply]
  rfl

theorem sumTile_apply (e : FVec Ideal S512x2048 .f32) (r : Fin 512) (c : Fin 2048) :
    sumTile e (ix2 r c) = ∑ k : Fin 2048, e (ix2 r k) :=
  (column_apply _ r c).trans (Cert.RowSums.multiReduction_add_rows_apply e reduces_S512x2048_S512 (.inl rfl) rfl r)

/-- Row `r` of the tile's softmax is the softmax of row `r` of the tile. -/
theorem softmaxTile_apply (s : FVec Ideal S512x2048 .f32) (r : Fin 512) (c : Fin 2048) :
    softmaxTile s (ix2 r c) = softmaxRow (fun k : Fin 2048 => s (ix2 r k)) c := by
  show Ideal.div (expTile s (ix2 r c)) (sumTile (expTile s) (ix2 r c)) = _
  rw [sumTile_apply, expTile_apply]
  simp only [expTile_apply]
  rfl

/-! ## The two matrix products -/

theorem qk_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- The first product, queries against keys contracted over the features, into the zero tile: at `(r, c)` the inner product
    of row `r` of the left operand with row `c` of the right one. -/
theorem qk_apply (a : FVec Ideal S512x64 .bf16) (b : FVec Ideal S2048x64 .bf16) (r : Fin 512) (c : Fin 2048) :
    matmul dot_S512x64_S2048x64_S512x2048_1_1_0_0_n_n none a b (constant S512x2048 .f32 0x00000000#32) (ix2 r c)
      = ∑ d : Fin 64, a (ix2 r d) * b (ix2 c d) := by
  refine (Ideal.matmul_constant_zero_apply dot_S512x64_S2048x64_S512x2048_1_1_0_0_n_n none a b (ix2 r c)).trans ?_
  rw [← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r c) ((contrEquiv1 dot_S512x64_S2048x64_S512x2048_1_1_0_0_n_n 64 rfl rfl).symm d) = ix2 r d :=
    funext fun x => Fin.ext (by
      match x with
      | ⟨0, _⟩ => exact qk_lhs0 _ _
      | ⟨1, _⟩ => exact (qk_lhs1 _ _).trans hd)
  have er : dot_S512x64_S2048x64_S512x2048_1_1_0_0_n_n.rhsIdx (ix2 r c) ((contrEquiv1 dot_S512x64_S2048x64_S512x2048_1_1_0_0_n_n 64 rfl rfl).symm d) = ix2 c d :=
    funext fun x => Fin.ext (by
      match x with
      | ⟨0, _⟩ => exact qk_rhs0 _ _
      | ⟨1, _⟩ => exact (qk_rhs1 _ _).trans hd)
  rw [el, er]

theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The second product, weights against values contracted over the keys, into the zero tile: at `(r, d)` row `r` of the
    weights applied to column `d` of the values. -/
theorem pv_apply (p : FVec Ideal S512x2048 .bf16) (v : FVec Ideal S2048x64 .bf16) (r : Fin 512) (d : Fin 64) :
    matmul dot_S512x2048_S2048x64_S512x64_1_0_0_1_n_n none p v (constant S512x64 .f32 0x00000000#32) (ix2 r d)
      = ∑ k : Fin 2048, p (ix2 r k) * v (ix2 k d) := by
  refine (Ideal.matmul_constant_zero_apply dot_S512x2048_S2048x64_S512x64_1_0_0_1_n_n none p v (ix2 r d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k :=
    funext fun x => Fin.ext (by
      match x with
      | ⟨0, _⟩ => exact pv_lhs0 _ _
      | ⟨1, _⟩ => exact (pv_lhs1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d :=
    funext fun x => Fin.ext (by
      match x with
      | ⟨0, _⟩ => exact (pv_rhs0 _ _).trans hk
      | ⟨1, _⟩ => exact pv_rhs1 _ _)
  rw [el, er]

/-! ## The body's payloads on a tile -/

section Payloads

variable (x0 : Vec Ideal S1x1x512x64 .f32) (x1 x2 : Vec Ideal S1x1x2048x64 .f32) (x9 : Vec Ideal S1x1x512x2048 .i32)

/-- The first product on the blocks as loaded: the casts to matrices and the changes of format read through, at `(r, c)` the
    inner product of the query block's row `r` with the key block's row `c`. -/
theorem qkBlock_apply (r : Fin 512) (c : Fin 2048) :
    matmul (F := Ideal) dot_S512x64_S2048x64_S512x2048_1_1_0_0_n_n none
        (truncf (F := Ideal) .bf16 (shapeCast S512x64 x0 shapeCasts_S1x1x512x64_S512x64) bitsLt_bf16_f32)
        (truncf (F := Ideal) .bf16 (shapeCast S2048x64 x1 shapeCasts_S1x1x2048x64_S2048x64) bitsLt_bf16_f32)
        (constant S512x2048 .f32 0x00000000#32) (ix2 r c)
      = ∑ d : Fin 64, x0 (ix4 (⟨0, Nat.one_pos⟩ : Fin 1) (⟨0, Nat.one_pos⟩ : Fin 1) r d) * x1 (ix4 (⟨0, Nat.one_pos⟩ : Fin 1) (⟨0, Nat.one_pos⟩ : Fin 1) c d) := by
  refine (qk_apply _ _ r c).trans (Finset.sum_congr rfl fun d _ => ?_)
  show shapeCast S512x64 x0 shapeCasts_S1x1x512x64_S512x64 (ix2 r d)
      * shapeCast S2048x64 x1 shapeCasts_S1x1x2048x64_S2048x64 (ix2 c d) = _
  rw [Cert.BlockLayouts.shapeCast_11ab_ab_apply, Cert.BlockLayouts.shapeCast_11ab_ab_apply]

/-- The tile of scaled, masked scores, as the body spells it. -/
def scoreTile : FVec Ideal S512x2048 .f32 :=
  select (cmpi .ne (shapeCast S512x2048 x9 shapeCasts_S1x1x512x2048_S512x2048) (constantI S512x2048 32 0#32))
    (broadcast S512x2048 (Scalar.ofBits .f32 0xCE6E6B28#32))
    (mulf (matmul dot_S512x64_S2048x64_S512x2048_1_1_0_0_n_n none
        (truncf .bf16 (shapeCast S512x64 x0 shapeCasts_S1x1x512x64_S512x64) bitsLt_bf16_f32)
        (truncf .bf16 (shapeCast S2048x64 x1 shapeCasts_S1x1x2048x64_S2048x64) bitsLt_bf16_f32)
        (constant S512x2048 .f32 0x00000000#32))
      (broadcast S512x2048 (Scalar.ofBits .f32 0x3E000000#32)))

/-- The body's attention tile is the softmax of its score tile. -/
theorem pay3_eq : k0_pay3 (F := Ideal) x0 x1 x9 = softmaxTile (scoreTile x0 x1 x9) := rfl

/-- The scores of the tile's row `r`: the query block's row `r` against the key block, under the mask rows' bits (a word of
    the widened mask is set where it is not the zero word). -/
def tileScores (r : Fin 512) : Fin 2048 → EReal :=
  scoreRow (fun d : Fin 64 => x0 (ix4 (⟨0, Nat.one_pos⟩ : Fin 1) (⟨0, Nat.one_pos⟩ : Fin 1) r d))
    (fun (k : Fin 2048) (d : Fin 64) => x1 (ix4 (⟨0, Nat.one_pos⟩ : Fin 1) (⟨0, Nat.one_pos⟩ : Fin 1) k d))
    (fun k : Fin 2048 => IntOp.cmpi .ne (x9 (ix4 (⟨0, Nat.one_pos⟩ : Fin 1) (⟨0, Nat.one_pos⟩ : Fin 1) r k)) 0#32)

theorem scoreTile_apply (r : Fin 512) (c : Fin 2048) : scoreTile x0 x1 x9 (ix2 r c) = tileScores x0 x1 x9 r c := by
  show Scalar.select (IntOp.cmpi .ne (shapeCast S512x2048 x9 shapeCasts_S1x1x512x2048_S512x2048 (ix2 r c)) 0#32)
      (Ideal.ofBits .f32 0xCE6E6B28#32)
      (matmul (F := Ideal) dot_S512x64_S2048x64_S512x2048_1_1_0_0_n_n none
          (truncf (F := Ideal) .bf16 (shapeCast S512x64 x0 shapeCasts_S1x1x512x64_S512x64) bitsLt_bf16_f32)
          (truncf (F := Ideal) .bf16 (shapeCast S2048x64 x1 shapeCasts_S1x1x2048x64_S2048x64) bitsLt_bf16_f32)
          (constant S512x2048 .f32 0x00000000#32) (ix2 r c) * Ideal.ofBits .f32 0x3E000000#32) = _
  rw [Cert.BlockLayouts.shapeCast_11ab_ab_apply, qkBlock_apply]
  rfl

/-- THE ATTENTION TILE the body stores, at `(u, v, r, c)` of its `[1, 1, 512, 2048]` block: the softmax of the scores of the
    tile's row `r`, at `c`. -/
theorem attnTile_apply (u v : Fin 1) (r : Fin 512) (c : Fin 2048) :
    k0_pay4 (F := Ideal) x0 x1 x9 (ix4 u v r c) = softmaxRow (tileScores x0 x1 x9 r) c := by
  show shapeCast S1x1x512x2048 (k0_pay3 (F := Ideal) x0 x1 x9) shapeCasts_S512x2048_S1x1x512x2048 (ix4 u v r c) = _
  rw [Cert.BlockLayouts.shapeCast_ab_11ab_apply, pay3_eq, softmaxTile_apply]
  simp only [scoreTile_apply]

/-- THE OUTPUT TILE the body stores, at `(u, v, r, d)` of its `[1, 1, 512, 64]` block: that softmax applied to column `d` of
    the value block. -/
theorem outTile_apply (u v : Fin 1) (r : Fin 512) (d : Fin 64) :
    k0_pay1 (F := Ideal) (k0_pay2 x2) (k0_pay3 x0 x1 x9) (ix4 u v r d)
      = mixRow (softmaxRow (tileScores x0 x1 x9 r))
          (fun (k : Fin 2048) (d : Fin 64) => x2 (ix4 (⟨0, Nat.one_pos⟩ : Fin 1) (⟨0, Nat.one_pos⟩ : Fin 1) k d)) d := by
  show shapeCast S1x1x512x64 (matmul (F := Ideal) dot_S512x2048_S2048x64_S512x64_1_0_0_1_n_n none
      (truncf (F := Ideal) .bf16 (k0_pay3 (F := Ideal) x0 x1 x9) bitsLt_bf16_f32)
      (truncf (F := Ideal) .bf16 (shapeCast S2048x64 x2 shapeCasts_S1x1x2048x64_S2048x64) bitsLt_bf16_f32)
      (constant S512x64 .f32 0x00000000#32)) shapeCasts_S512x64_S1x1x512x64 (ix4 u v r d) = _
  rw [Cert.BlockLayouts.shapeCast_ab_11ab_apply]
  refine (pv_apply _ _ r d).trans (Finset.sum_congr rfl fun k _ => ?_)
  show k0_pay3 (F := Ideal) x0 x1 x9 (ix2 r k) * shapeCast S2048x64 x2 shapeCasts_S1x1x2048x64_S2048x64 (ix2 k d) = _
  rw [Cert.BlockLayouts.shapeCast_11ab_ab_apply, pay3_eq, softmaxTile_apply]
  simp only [scoreTile_apply]

end Payloads

end Cert.Attention.Tile

end
-- ==== Proof.KernelValue.lean ====
/-
  The kernel's two result arrays are the specification's.

  The grid has one point per batch `b`, head `h` and block `g` of 512 query rows. At that point the kernel's windows hold
  the query rows `512·g … 512·g + 511` of `(b, h)`, all keys and all values of `(b, h)`, and the whole mask (widened by the
  host to 32-bit words, one per bit); it writes back rows `512·g …` of `(b, h)` of both results. So tile row `r` is array row
  `512·g + r`: the tile's scores are the specification's scores of that row (a widened mask word is nonzero exactly when
  its bit is set), what the point writes back is its block of the specification's arrays, and the points' blocks fill
  both arrays.
-/
import proofs.«178960_j32409823216264_2_alg».proof.Proof.Gen.KernelIdeal.Value
import proofs.«178960_j32409823216264_2_alg».proof.Proof.Pieces
import proofs.«178960_j32409823216264_2_alg».proof.Proof.TileValue
import proofs.«178960_j32409823216264_2_alg».proof.Proof.Spec
import Idealize.ShloMosaic.Lib.Pipeline.Value
import Idealize.ShloMosaic.Lib.StableHlo.Run

noncomputable section

open scoped BigOperators

namespace Cert.Attention.KernelValue

open Cert.KernelIdeal Cert.KernelIdeal.Gen Cert.Attention Cert.Attention.Tile Cert.Attention.Pieces
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays, and the grid point's coordinates -/

abbrev argQ (c : Dev nD) : (⟨4, ![2, 16, 2048, 64]⟩ : Shape).Idx → EReal := m ((c : Thread nD τ).loc main_arg0)
abbrev argK (c : Dev nD) : (⟨4, ![2, 16, 2048, 64]⟩ : Shape).Idx → EReal := m ((c : Thread nD τ).loc main_arg1)
abbrev argV (c : Dev nD) : (⟨4, ![2, 16, 2048, 64]⟩ : Shape).Idx → EReal := m ((c : Thread nD τ).loc main_arg2)
abbrev argM (c : Dev nD) : (⟨4, ![1, 1, 2048, 2048]⟩ : Shape).Idx → BitVec 1 := m ((c : Thread nD τ).loc main_arg3)

/-- The point's batch, head and block of query rows. -/
abbrev ptB (t : Fin cfg0.N) : Fin 2 := grid0.coords t 0
abbrev ptH (t : Fin cfg0.N) : Fin 16 := grid0.coords t 1
abbrev ptG (t : Fin cfg0.N) : Fin 4 := grid0.coords t 2

/-- The array row of the tile's row `r` at point `t`. -/
abbrev rowOf (t : Fin cfg0.N) (r : Fin 512) : Fin 2048 :=
  ⟨512 * (grid0.coords t 2).val + r.val, by
    have h1 : (grid0.coords t 2).val < 4 := (grid0.coords t 2).isLt
    have h2 := r.isLt
    omega⟩

/-! ## The printed index maps, decided over the 128 grid points -/

theorem idx_q : ∀ t : Fin cfg0.N, win0_0.index t (0 : Fin 4) = (grid0.coords t 0).val
    ∧ win0_0.index t (1 : Fin 4) = (grid0.coords t 1).val ∧ win0_0.index t (2 : Fin 4) = (grid0.coords t 2).val
    ∧ win0_0.index t (3 : Fin 4) = 0 :=
  (by decide +kernel : ∀ t : Fin grid0.N, _)

theorem idx_k : ∀ t : Fin cfg0.N, win0_1.index t (0 : Fin 4) = (grid0.coords t 0).val
    ∧ win0_1.index t (1 : Fin 4) = (grid0.coords t 1).val ∧ win0_1.index t (2 : Fin 4) = 0
    ∧ win0_1.index t (3 : Fin 4) = 0 :=
  (by decide +kernel : ∀ t : Fin grid0.N, _)

theorem idx_v : ∀ t : Fin cfg0.N, win0_2.index t (0 : Fin 4) = (grid0.coords t 0).val
    ∧ win0_2.index t (1 : Fin 4) = (grid0.coords t 1).val ∧ win0_2.index t (2 : Fin 4) = 0
    ∧ win0_2.index t (3 : Fin 4) = 0 :=
  (by decide +kernel : ∀ t : Fin grid0.N, _)

theorem idx_m : ∀ t : Fin cfg0.N, win0_3.index t (0 : Fin 4) = 0 ∧ win0_3.index t (1 : Fin 4) = 0
    ∧ win0_3.index t (2 : Fin 4) = 0 ∧ win0_3.index t (3 : Fin 4) = 0
    ∧ k0_off1 (grid0.coords t) (0 : Fin 4) = 0 ∧ k0_off1 (grid0.coords t) (1 : Fin 4) = 0
    ∧ k0_off1 (grid0.coords t) (2 : Fin 4) = 512 * (grid0.coords t 2).val ∧ k0_off1 (grid0.coords t) (3 : Fin 4) = 0 :=
  (by decide +kernel : ∀ t : Fin grid0.N, _)

theorem idx_o : ∀ t : Fin cfg0.N, win0_4.index t (0 : Fin 4) = (grid0.coords t 0).val
    ∧ win0_4.index t (1 : Fin 4) = (grid0.coords t 1).val ∧ win0_4.index t (2 : Fin 4) = (grid0.coords t 2).val
    ∧ win0_4.index t (3 : Fin 4) = 0 :=
  (by decide +kernel : ∀ t : Fin grid0.N, _)

theorem idx_p : ∀ t : Fin cfg0.N, win0_5.index t (0 : Fin 4) = (grid0.coords t 0).val
    ∧ win0_5.index t (1 : Fin 4) = (grid0.coords t 1).val ∧ win0_5.index t (2 : Fin 4) = (grid0.coords t 2).val
    ∧ win0_5.index t (3 : Fin 4) = 0 :=
  (by decide +kernel : ∀ t : Fin grid0.N, _)

/-- Every (batch, head, block of rows) is some point's, for both outputs. -/
theorem idx_onto_o : ∀ (q0 : Fin 2) (q1 : Fin 16) (q2 : Fin 4), ∃ t : Fin cfg0.N,
    win0_4.index t = ![q0.val, q1.val, q2.val, 0] :=
  (by decide +kernel : ∀ (q0 : Fin 2) (q1 : Fin 16) (q2 : Fin 4), ∃ t : Fin grid0.N,
    win0_4.index t = ![q0.val, q1.val, q2.val, 0])

theorem idx_onto_p : ∀ (q0 : Fin 2) (q1 : Fin 16) (q2 : Fin 4), ∃ t : Fin cfg0.N,
    win0_5.index t = ![q0.val, q1.val, q2.val, 0] :=
  (by decide +kernel : ∀ (q0 : Fin 2) (q1 : Fin 16) (q2 : Fin 4), ∃ t : Fin grid0.N,
    win0_5.index t = ![q0.val, q1.val, q2.val, 0])

/-! ## The input blocks, read where the arrays have them -/

/-- The query block at point `t` holds rows `512·g + r` of `(b, h)`. -/
theorem qBlock_apply (c : Dev nD) (t : Fin cfg0.N) (u v : Fin 1) (r : Fin 512) (d : Fin 64) :
    iblk m c 0 t (ix4 u v r d) = argQ m c (ix4 (ptB t) (ptH t) (rowOf t r) d) := by
  obtain ⟨e0, e1, e2, e3⟩ := idx_q t
  have hu : u.val = 0 := by omega
  have hv : v.val = 0 := by omega
  show V m c main_arg0 (((cfg0.win 0).blk t).view.emb (ix4 u v r d)) = _
  rw [V_main_arg0]
  refine congrArg (m ((c : Thread nD τ).loc main_arg0)) (funext fun a => Fin.ext ?_)
  match a with
  | ⟨0, _⟩ => show win0_0.index t (0 : Fin 4) * 1 + 1 * u.val = (grid0.coords t 0).val; omega
  | ⟨1, _⟩ => show win0_0.index t (1 : Fin 4) * 1 + 1 * v.val = (grid0.coords t 1).val; omega
  | ⟨2, _⟩ => show win0_0.index t (2 : Fin 4) * 512 + 1 * r.val = 512 * (grid0.coords t 2).val + r.val; omega
  | ⟨3, _⟩ => show win0_0.index t (3 : Fin 4) * 64 + 1 * d.val = d.val; omega

/-- The key block at point `t` holds all rows of `(b, h)`. -/
theorem kBlock_apply (c : Dev nD) (t : Fin cfg0.N) (u v : Fin 1) (k : Fin 2048) (d : Fin 64) :
    iblk m c 1 t (ix4 u v k d) = argK m c (ix4 (ptB t) (ptH t) k d) := by
  obtain ⟨e0, e1, e2, e3⟩ := idx_k t
  have hu : u.val = 0 := by omega
  have hv : v.val = 0 := by omega
  show V m c main_arg1 (((cfg0.win 1).blk t).view.emb (ix4 u v k d)) = _
  rw [V_main_arg1]
  refine congrArg (m ((c : Thread nD τ).loc main_arg1)) (funext fun a => Fin.ext ?_)
  match a with
  | ⟨0, _⟩ => show win0_1.index t (0 : Fin 4) * 1 + 1 * u.val = (grid0.coords t 0).val; omega
  | ⟨1, _⟩ => show win0_1.index t (1 : Fin 4) * 1 + 1 * v.val = (grid0.coords t 1).val; omega
  | ⟨2, _⟩ => show win0_1.index t (2 : Fin 4) * 2048 + 1 * k.val = k.val; omega
  | ⟨3, _⟩ => show win0_1.index t (3 : Fin 4) * 64 + 1 * d.val = d.val; omega

/-- The value block at point `t` holds all rows of `(b, h)`. -/
theorem vBlock_apply (c : Dev nD) (t : Fin cfg0.N) (u v : Fin 1) (k : Fin 2048) (d : Fin 64) :
    iblk m c 2 t (ix4 u v k d) = argV m c (ix4 (ptB t) (ptH t) k d) := by
  obtain ⟨e0, e1, e2, e3⟩ := idx_v t
  have hu : u.val = 0 := by omega
  have hv : v.val = 0 := by omega
  show V m c main_arg2 (((cfg0.win 2).blk t).view.emb (ix4 u v k d)) = _
  rw [V_main_arg2]
  refine congrArg (m ((c : Thread nD τ).loc main_arg2)) (funext fun a => Fin.ext ?_)
  match a with
  | ⟨0, _⟩ => show win0_2.index t (0 : Fin 4) * 1 + 1 * u.val = (grid0.coords t 0).val; omega
  | ⟨1, _⟩ => show win0_2.index t (1 : Fin 4) * 1 + 1 * v.val = (grid0.coords t 1).val; omega
  | ⟨2, _⟩ => show win0_2.index t (2 : Fin 4) * 2048 + 1 * k.val = k.val; omega
  | ⟨3, _⟩ => show win0_2.index t (3 : Fin 4) * 64 + 1 * d.val = d.val; omega

/-- The array the mask window stages is the host's widening of the mask argument to 32-bit words. -/
theorem maskArray (c : Dev nD) :
    (V m c main_v0 : S1x1x2048x2048.Idx → BitVec 32) = extui 32 (argM m c) natLt_1_32 := by
  dsimp only [Gen.V, Gen.hostOps0]
  after_results

/-- A widened mask word is nonzero exactly when the bit is set. -/
theorem bit_of_word (b : BitVec 1) : IntOp.cmpi .ne (b.setWidth 32) 0#32 = b := by
  rcases BitVec.eq_zero_or_eq_one b with h | h <;> subst h <;> decide

/-- The point's mask rows are rows `512·g + r` of the mask, widened. -/
theorem maskRows_apply (c : Dev nD) (t : Fin cfg0.N) (u v : Fin 1) (r : Fin 512) (k : Fin 2048) :
    maskRows (grid0.coords t) (iblk m c 3 t) (ix4 u v r k)
      = (argM m c (ix4 (⟨0, Nat.one_pos⟩ : Fin 1) (⟨0, Nat.one_pos⟩ : Fin 1) (rowOf t r) k)).setWidth 32 := by
  obtain ⟨e0, e1, e2, e3, f0, f1, f2, f3⟩ := idx_m t
  have hu : u.val = 0 := by omega
  have hv : v.val = 0 := by omega
  show V m c main_v0 (((cfg0.win 3).blk t).view.emb
    ((Rect.unit (s := S1x1x2048x2048) (k0_off1 (grid0.coords t)) S1x1x512x2048.size (k0_off1_inb (grid0.coords t))).idx
      (ix4 u v r k))) = _
  rw [maskArray]
  show (argM m c _).setWidth 32 = _
  refine congrArg (fun i => (argM m c i).setWidth 32) (funext fun a => Fin.ext ?_)
  match a with
  | ⟨0, _⟩ => show win0_3.index t (0 : Fin 4) * 1 + 1 * (k0_off1 (grid0.coords t) (0 : Fin 4) + 1 * u.val) = 0; omega
  | ⟨1, _⟩ => show win0_3.index t (1 : Fin 4) * 1 + 1 * (k0_off1 (grid0.coords t) (1 : Fin 4) + 1 * v.val) = 0; omega
  | ⟨2, _⟩ => show win0_3.index t (2 : Fin 4) * 2048 + 1 * (k0_off1 (grid0.coords t) (2 : Fin 4) + 1 * r.val) = 512 * (grid0.coords t 2).val + r.val; omega
  | ⟨3, _⟩ => show win0_3.index t (3 : Fin 4) * 2048 + 1 * (k0_off1 (grid0.coords t) (3 : Fin 4) + 1 * k.val) = k.val; omega

/-! ## The tile's scores are the specification's -/

theorem tileScores_eq (c : Dev nD) (t : Fin cfg0.N) (r : Fin 512) :
    tileScores (iblk m c 0 t) (iblk m c 1 t) (maskRows (grid0.coords t) (iblk m c 3 t)) r
      = scores (argQ m c) (argK m c) (argM m c) (ptB t) (ptH t) (rowOf t r) := by
  have hq : (fun d : Fin 64 => (iblk m c 0 t : Vec Ideal S1x1x512x64 .f32) (ix4 (⟨0, Nat.one_pos⟩ : Fin 1) (⟨0, Nat.one_pos⟩ : Fin 1) r d))
      = fun d : Fin 64 => argQ m c (ix4 (ptB t) (ptH t) (rowOf t r) d) :=
    funext fun d => qBlock_apply m c t _ _ r d
  have hk : (fun (k : Fin 2048) (d : Fin 64) => (iblk m c 1 t : Vec Ideal S1x1x2048x64 .f32) (ix4 (⟨0, Nat.one_pos⟩ : Fin 1) (⟨0, Nat.one_pos⟩ : Fin 1) k d))
      = fun (k : Fin 2048) (d : Fin 64) => argK m c (ix4 (ptB t) (ptH t) k d) :=
    funext fun k => funext fun d => kBlock_apply m c t _ _ k d
  have hm : (fun k : Fin 2048 => IntOp.cmpi .ne
        ((maskRows (grid0.coords t) (iblk m c 3 t) : Vec Ideal S1x1x512x2048 .i32) (ix4 (⟨0, Nat.one_pos⟩ : Fin 1) (⟨0, Nat.one_pos⟩ : Fin 1) r k)) 0#32)
      = fun k : Fin 2048 => argM m c (ix4 (0 : Fin 1) (0 : Fin 1) (rowOf t r) k) :=
    funext fun k => by rw [maskRows_apply, bit_of_word]; rfl
  exact congr (congr (congrArg scoreRow hq) hk) hm

/-! ## What each point writes back -/

theorem attn_flushed (c : Dev nD) (t : Fin cfg0.N) :
    (dats m 0 c).flushed 5 t
      = ((cfg0.win 5).blk t).view.read (Elt Ideal) (probs (argQ m c) (argK m c) (argM m c)) := by
  rw [Cert.KernelIdeal.Value.flushed5_A, attnBlock]
  obtain ⟨e0, e1, e2, e3⟩ := idx_p t
  funext j
  obtain ⟨u, v, r, k, rfl⟩ : ∃ (u v : Fin 1) (r : Fin 512) (k : Fin 2048), j = ix4 u v r k :=
    ⟨j 0, j 1, j 2, j 3, eq_ix4 (n0 := 1) (n1 := 1) (n2 := 512) (n3 := 2048) j⟩
  have hu : u.val = 0 := by omega
  have hv : v.val = 0 := by omega
  show k0_pay4 (F := Ideal) (iblk m c 0 t) (iblk m c 1 t) (maskRows (grid0.coords t) (iblk m c 3 t)) (ix4 u v r k)
    = probs (argQ m c) (argK m c) (argM m c) (((cfg0.win 5).blk t).view.emb (ix4 u v r k))
  have hi : ((cfg0.win 5).blk t).view.emb (ix4 u v r k) = ix4 (ptB t) (ptH t) (rowOf t r) k :=
    funext fun a => Fin.ext (by
      match a with
      | ⟨0, _⟩ => show win0_5.index t (0 : Fin 4) * 1 + 1 * u.val = (grid0.coords t 0).val; omega
      | ⟨1, _⟩ => show win0_5.index t (1 : Fin 4) * 1 + 1 * v.val = (grid0.coords t 1).val; omega
      | ⟨2, _⟩ => show win0_5.index t (2 : Fin 4) * 512 + 1 * r.val = 512 * (grid0.coords t 2).val + r.val; omega
      | ⟨3, _⟩ => show win0_5.index t (3 : Fin 4) * 2048 + 1 * k.val = k.val; omega)
  rw [hi, probs_ix4, attnTile_apply, tileScores_eq]
  rfl

theorem out_flushed (c : Dev nD) (t : Fin cfg0.N) :
    (dats m 0 c).flushed 4 t
      = ((cfg0.win 4).blk t).view.read (Elt Ideal) (outs (argQ m c) (argK m c) (argV m c) (argM m c)) := by
  rw [Cert.KernelIdeal.Value.flushed4_A, outBlock]
  obtain ⟨e0, e1, e2, e3⟩ := idx_o t
  funext j
  obtain ⟨u, v, r, d, rfl⟩ : ∃ (u v : Fin 1) (r : Fin 512) (d : Fin 64), j = ix4 u v r d :=
    ⟨j 0, j 1, j 2, j 3, eq_ix4 (n0 := 1) (n1 := 1) (n2 := 512) (n3 := 64) j⟩
  have hu : u.val = 0 := by omega
  have hv : v.val = 0 := by omega
  show k0_pay1 (F := Ideal) (k0_pay2 (iblk m c 2 t))
      (k0_pay3 (iblk m c 0 t) (iblk m c 1 t) (maskRows (grid0.coords t) (iblk m c 3 t))) (ix4 u v r d)
    = outs (argQ m c) (argK m c) (argV m c) (argM m c) (((cfg0.win 4).blk t).view.emb (ix4 u v r d))
  have hi : ((cfg0.win 4).blk t).view.emb (ix4 u v r d) = ix4 (ptB t) (ptH t) (rowOf t r) d :=
    funext fun a => Fin.ext (by
      match a with
      | ⟨0, _⟩ => show win0_4.index t (0 : Fin 4) * 1 + 1 * u.val = (grid0.coords t 0).val; omega
      | ⟨1, _⟩ => show win0_4.index t (1 : Fin 4) * 1 + 1 * v.val = (grid0.coords t 1).val; omega
      | ⟨2, _⟩ => show win0_4.index t (2 : Fin 4) * 512 + 1 * r.val = 512 * (grid0.coords t 2).val + r.val; omega
      | ⟨3, _⟩ => show win0_4.index t (3 : Fin 4) * 64 + 1 * d.val = d.val; omega)
  have hv' : (fun (k : Fin 2048) (d : Fin 64) => (iblk m c 2 t : Vec Ideal S1x1x2048x64 .f32) (ix4 (⟨0, Nat.one_pos⟩ : Fin 1) (⟨0, Nat.one_pos⟩ : Fin 1) k d))
      = fun (k : Fin 2048) (d : Fin 64) => argV m c (ix4 (ptB t) (ptH t) k d) :=
    funext fun k => funext fun d => vBlock_apply m c t _ _ k d
  rw [hi, outs_ix4, outTile_apply, tileScores_eq, hv']
  rfl

/-! ## The points' blocks fill both arrays -/

theorem mem_attn_blk (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

theorem mem_out_blk (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v1_0).slice (win0_4.rect t)).set ↔ _
  rw [View.set_slice_whole, Rect.mem_set_unit]
  exact Iff.rfl

/-- Every index of the attention array is in the block of the point of its batch, head and block of rows. -/
theorem attn_cover (i : S2x16x2048x2048.Idx) :
    ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, ht⟩ := idx_onto_p ⟨(i 0).val, h0⟩ ⟨(i 1).val, h1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_attn_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output array likewise. -/
theorem out_cover (i : S2x16x2048x64.Idx) :
    ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := idx_onto_o ⟨(i 0).val, h0⟩ ⟨(i 1).val, h1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_out_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run, and the run -/

theorem attn_final (c : Dev nD) :
    (dats m 0 c).arrAt 5 cfg0.N = probs (argQ m c) (argK m c) (argM m c) :=
  (dats m 0 c).arrAt_eq_of_cover 5 (probs (argQ m c) (argK m c) (argM m c)) (fun t _ => attn_flushed m c t) attn_cover

theorem out_final (c : Dev nD) :
    (dats m 0 c).arrAt 4 cfg0.N = outs (argQ m c) (argK m c) (argV m c) (argM m c) :=
  (dats m 0 c).arrAt_eq_of_cover 4 (outs (argQ m c) (argK m c) (argV m c) (argM m c)) (fun t _ => out_flushed m c t)
    out_cover

/-- The kernel's run: every weakly fair execution ends with the two result arrays at the specification of the argument
    arrays, and the arguments unchanged. -/
theorem run : θ_run defs (onTc (τ := τ) (main (F := Ideal))) ⟨m, fun _ => 0, ρ⟩ fun r => ∀ c : Dev nD,
      r.2.mem ((c : Thread nD τ).loc main_v1_0) = outs (argQ m c) (argK m c) (argV m c) (argM m c)
      ∧ r.2.mem ((c : Thread nD τ).loc main_v1_1) = probs (argQ m c) (argK m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out_final m c), (h c).2.1.trans (attn_final m c), (h c).2.2⟩)
    (Cert.KernelIdeal.Value.run_blocks m ρ)

end Cert.Attention.KernelValue

end
-- ==== Proof.Consts.lean ====
/-
  The float words this kernel and its reference spell, as the extended reals they denote.

  The reference divides the raw scores by the word of `8.0`; the kernel multiplies them by the word of `0.125`. Both
  words are exact: `8` and `1/8`. The row maxima start from the word of `-∞`, the bottom of the extended reals. These
  three readings are all the certificate needs of the words' values (the mask fill `-1e9` is the same word on both
  sides and is never evaluated), and they are stated once, here.
-/
import Idealize.ShloMosaic.PureOps.Ideal

noncomputable section

namespace Cert.Attention.Consts

open Idealize.ShloMosaic

/-- The word `0x41000000` (`8.0`) denotes the real `8`. -/
theorem ofBits_eight : Ideal.ofBits .f32 0x41000000#32 = ((8 : ℝ) : EReal) := by
  simp [Ideal.ofBits, Ideal.ieee, -EReal.coe_mul]; norm_num

/-- The word `0x3E000000` (`0.125`) denotes the real `1/8`. -/
theorem ofBits_eighth : Ideal.ofBits .f32 0x3E000000#32 = ((1 / 8 : ℝ) : EReal) := by
  simp [Ideal.ofBits, Ideal.ieee, -EReal.coe_mul]; norm_num

/-- The word `0xFF800000` denotes `-∞`, the least extended real. -/
theorem ofBits_negInf : Ideal.ofBits .f32 0xFF800000#32 = (⊥ : EReal) := by
  simp [Ideal.ofBits, Ideal.ieee]

/-- Dividing by the word of `8.0` is multiplying by the word of `0.125`, at every extended real (the infinities
    included: the quotient by a nonzero real is the product with its reciprocal). -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

/-- The maximum with `-∞` on the left is the other operand. -/
theorem max_negInf (y : EReal) : max (Ideal.ofBits .f32 0xFF800000#32) y = y := by
  rw [ofBits_negInf]; exact max_eq_right bot_le

end Cert.Attention.Consts

end
-- ==== Proof.RefValue.lean ====
/-
  The reference computes the specification.

  The reference's program is a straight line of whole-array operations: the batched inner products of queries and keys,
  divided by `8`; the mask's fill; the row maxima (a reduction from `-∞`, then once more a maximum with `-∞`); the
  shifted exponentials; their row sums (from `0`); the quotient; and the batched product with the values. Read at the
  coordinates `(b, h, q, k)`, stage by stage, each is the corresponding step of the specification: the quotient by `8` is
  the product with `1/8` on every extended real, the second maximum with `-∞` changes nothing, and the sum started from
  `0` is the plain sum.
-/
import proofs.«178960_j32409823216264_2_alg».proof.Proof.Gen.ReferenceIdeal.Read
import proofs.«178960_j32409823216264_2_alg».proof.Proof.Spec
import proofs.«178960_j32409823216264_2_alg».proof.Proof.Consts
import proofs.«178960_j32409823216264_2_alg».proof.Proof.LibRowMax

noncomputable section

open scoped BigOperators

namespace Cert.Attention.Ref

open Cert.ReferenceIdeal Cert.ReferenceIdeal.Gen Cert.ReferenceIdeal.Read Cert.Attention
open Idealize.ShloMosaic Idealize.ShloMosaic.ValueIdx

variable (Q K V : (⟨S2x16x2048x64, .f32⟩ : BufTy).Contents (Elt Ideal))
variable (M : (⟨S1x1x2048x2048, .i1⟩ : BufTy).Contents (Elt Ideal))

/-! ## The index maps of the layout operations, at coordinates -/

theorem idx_mask (b : Fin 2) (h : Fin 16) (q k : Fin 2048) :
    idx_main_call0_v0 (ix4 b h q k) = ix4 (0 : Fin 1) (0 : Fin 1) q k :=
  funext fun a => Fin.ext (by match a with | ⟨0, _⟩ => rfl | ⟨1, _⟩ => rfl | ⟨2, _⟩ => rfl | ⟨3, _⟩ => rfl)

theorem idx_query (b : Fin 2) (h : Fin 16) (q k : Fin 2048) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

theorem idx_key (b : Fin 2) (h : Fin 16) (q k : Fin 2048) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

theorem idx_rowOfMax (b : Fin 2) (h : Fin 16) (q k : Fin 2048) :
    idx_main_v7 (idx_main_v8 (ix4 b h q k)) = ix3 b h q :=
  funext fun a => Fin.ext (by match a with | ⟨0, _⟩ => rfl | ⟨1, _⟩ => rfl | ⟨2, _⟩ => rfl)

theorem idx_rowOfSum (b : Fin 2) (h : Fin 16) (q k : Fin 2048) :
    idx_main_v12 (idx_main_v13 (ix4 b h q k)) = ix3 b h q :=
  funext fun a => Fin.ext (by match a with | ⟨0, _⟩ => rfl | ⟨1, _⟩ => rfl | ⟨2, _⟩ => rfl)

theorem idx_summand (b : Fin 2) (h : Fin 16) (q : Fin 2048) (k : Fin 2048) :
    idx_main_v11 (ix3 b h q) k = ix4 b h q k :=
  funext fun a => Fin.ext (by match a with | ⟨0, _⟩ => rfl | ⟨1, _⟩ => rfl | ⟨2, _⟩ => rfl | ⟨3, _⟩ => rfl)

theorem idx_weight (b : Fin 2) (h : Fin 16) (q : Fin 2048) (d : Fin 64) (k : Fin 2048) :
    lidx_main_v15 (ix4 b h q d) k = ix4 b h q k :=
  funext fun a => Fin.ext (by match a with | ⟨0, _⟩ => rfl | ⟨1, _⟩ => rfl | ⟨2, _⟩ => rfl | ⟨3, _⟩ => rfl)

theorem idx_value (b : Fin 2) (h : Fin 16) (q : Fin 2048) (d : Fin 64) (k : Fin 2048) :
    ridx_main_v15 (ix4 b h q d) k = ix4 b h k d :=
  funext fun a => Fin.ext (by match a with | ⟨0, _⟩ => rfl | ⟨1, _⟩ => rfl | ⟨2, _⟩ => rfl | ⟨3, _⟩ => rfl)

/-! ## The stages, at coordinates -/

/-- The masked, scaled scores: the reference's quotient by `8` is the product with `1/8`. -/
theorem score_apply (b : Fin 2) (h : Fin 16) (q k : Fin 2048) :
    val_main_v3 (F := Ideal) Q K M (ix4 b h q k) = scores Q K M b h q k := by
  rw [val_main_v3_apply, val_main_call0_v0_apply, val_main_call0_v1_apply, val_main_cst_0_apply, val_main_v2_apply,
    val_main_v0_apply, val_main_v1_apply, val_main_cst_apply, idx_mask]
  simp only [idx_query, idx_key, Ideal.hostDivf_def, Ideal.ofBits_def, Consts.div_eight]
  rfl

/-- The row maxima: the reduction from `-∞` is the fold of `max` over the row, and the maximum with `-∞` taken once
    more leaves it as it is. -/
theorem rowMax_apply (b : Fin 2) (h : Fin 16) (q : Fin 2048) :
    val_main_v6 (F := Ideal) Q K M (ix3 b h q) = rowMax (scores Q K M b h q) := by
  rw [val_main_v6_apply, val_main_v5_apply, val_main_cst_2_apply]
  unfold val_main_v4
  rw [Cert.RowMax.hostReduce_max_last4_apply (val_main_v3 (F := Ideal) Q K M) (val_main_cst_1 (F := Ideal))
    reducesTo_S2x16x2048x2048_S2x16x2048_d3 (by decide) h_S_ b h q, val_main_cst_1_apply]
  simp only [score_apply, Ideal.maximumf_def, Ideal.ofBits_def]
  exact Consts.max_negInf _

/-- The shifted exponentials. -/
theorem expRow_apply (b : Fin 2) (h : Fin 16) (q k : Fin 2048) :
    val_main_v10 (F := Ideal) Q K M (ix4 b h q k) = expRow (scores Q K M b h q) k := by
  rw [val_main_v10_apply, val_main_v9_apply, val_main_v8_apply, val_main_v7_apply, idx_rowOfMax, score_apply,
    rowMax_apply]
  rfl

/-- The row sums of the exponentials: the sum started from the zero word is the plain sum. -/
theorem expSum_apply (b : Fin 2) (h : Fin 16) (q : Fin 2048) :
    val_main_v11 (F := Ideal) Q K M (ix3 b h q) = ∑ j : Fin 2048, expRow (scores Q K M b h q) j := by
  rw [val_main_v11_apply, val_main_cst_3_apply]
  simp only [idx_summand, expRow_apply, Ideal.ofBits_def, Ideal.ofBits_zero_f32, zero_add]

/-- The attention weights. -/
theorem prob_apply (b : Fin 2) (h : Fin 16) (q k : Fin 2048) :
    val_main_v14 (F := Ideal) Q K M (ix4 b h q k) = probAt Q K M b h q k := by
  rw [val_main_v14_apply, val_main_v13_apply, val_main_v12_apply, idx_rowOfSum, expRow_apply, expSum_apply]
  rfl

/-- The outputs. -/
theorem out_apply (b : Fin 2) (h : Fin 16) (q : Fin 2048) (d : Fin 64) :
    val_main_v15 (F := Ideal) Q K V M (ix4 b h q d) = outAt Q K V M b h q d := by
  rw [val_main_v15_apply]
  simp only [idx_weight, idx_value, prob_apply]
  rfl

/-! ## The two result arrays -/

/-- The reference's second result is the array of attention weights. -/
theorem probs_eq : val_main_v14 (F := Ideal) Q K M = probs Q K M := by
  funext i
  obtain ⟨b, h, q, k, rfl⟩ : ∃ (b : Fin 2) (h : Fin 16) (q k : Fin 2048), i = ix4 b h q k :=
    ⟨i 0, i 1, i 2, i 3, eq_ix4 i⟩
  exact prob_apply Q K M b h q k

/-- The reference's first result is the array of outputs. -/
theorem outs_eq : val_main_v15 (F := Ideal) Q K V M = outs Q K V M := by
  funext i
  obtain ⟨b, h, q, d, rfl⟩ : ∃ (b : Fin 2) (h : Fin 16) (q : Fin 2048) (d : Fin 64), i = ix4 b h q d :=
    ⟨i 0, i 1, i 2, i 3, eq_ix4 i⟩
  exact out_apply Q K V M b h q d

end Cert.Attention.Ref

end
-- ==== Proof.lean ====
/-
  Masked softmax attention: the tiled kernel and the whole-array reference compute the same extended reals.

  Both programs take queries, keys and values `[2, 16, 2048, 64]` and a mask `[1, 1, 2048, 2048]` shared by every batch and
  head, and return the attention weights `[2, 16, 2048, 2048]` and their product with the values `[2, 16, 2048, 64]`. For
  each query row the weights are the softmax of the row of scores — the inner products with the keys scaled by `1/8`, with
  the masked entries filled by `-1e9` — and the output row is the weights applied to the values (Proof/Spec.lean).

  The reference computes this on whole arrays (Proof/RefValue.lean): it divides by `8` where the kernel multiplies by
  `0.125`, the same extended real; it takes the row maximum from `-∞` and then once more the maximum with `-∞`, which
  changes nothing; its sums start from `0`. The kernel computes it tile by tile, 512 query rows of one batch and head
  at each of its 128 grid points (Proof/TileValue.lean for a tile, Proof/Pieces.lean for what the body's stores leave,
  Proof/KernelValue.lean for the blocks filling the arrays); its changes of float format are the identity on extended
  reals, its matrix products are the same finite sums as the reference's, and it reads the mask through a widening to
  32-bit words that keeps each bit. No step uses finiteness of the inputs: the two sides are one function of the
  arguments at every extended real.

  The three frames are the generated ones (the reference's is its run with the results dropped), and the kernel's
  idealization rewrote nothing.
-/
import proofs.«178960_j32409823216264_2_alg».proof.Defs
import proofs.«178960_j32409823216264_2_alg».proof.Proof.Gen.Kernel
import proofs.«178960_j32409823216264_2_alg».proof.Proof.Gen.Kernel.Skeleton
import proofs.«178960_j32409823216264_2_alg».proof.Proof.Gen.Kernel.Launch
import proofs.«178960_j32409823216264_2_alg».proof.Proof.Gen.Kernel.Points
import proofs.«178960_j32409823216264_2_alg».proof.Proof.Gen.Kernel.Frame
import proofs.«178960_j32409823216264_2_alg».proof.Proof.Gen.KernelIdeal
import proofs.«178960_j32409823216264_2_alg».proof.Proof.Gen.KernelIdeal.Skeleton
import proofs.«178960_j32409823216264_2_alg».proof.Proof.Gen.KernelIdeal.Launch
import proofs.«178960_j32409823216264_2_alg».proof.Proof.Gen.KernelIdeal.Points
import proofs.«178960_j32409823216264_2_alg».proof.Proof.Gen.KernelIdeal.Frame
import proofs.«178960_j32409823216264_2_alg».proof.Proof.Gen.ReferenceIdeal
import proofs.«178960_j32409823216264_2_alg».proof.Proof.Gen.Pre_finite_inputs
import proofs.«178960_j32409823216264_2_alg».proof.Proof.Gen.KernelIdeal.Value
import proofs.«178960_j32409823216264_2_alg».proof.Proof.Gen.ReferenceIdeal.Run
import proofs.«178960_j32409823216264_2_alg».proof.Proof.Gen.ReferenceIdeal.Read
import proofs.«178960_j32409823216264_2_alg».proof.Proof.KernelValue
import proofs.«178960_j32409823216264_2_alg».proof.Proof.RefValue
import Idealize.ShloMosaic.Adequacy
import Idealize.ShloMosaic.Init

noncomputable section

namespace Cert.Proof

open Idealize.ShloMosaic Idealize.SL.Sem
open Cert.Attention Cert.Attention.KernelValue

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments, the kernel ends with its two result arrays at the specification of
    its arguments, and the reference ends with its two results at the specification of its own, which are the same
    arrays. -/
theorem algebraic : Cert.algebraic_KernelIdeal_ReferenceIdeal := by
  intro m ρ m' ρ' _ hagree
  refine ⟨fun c => outs (argQ m c) (argK m c) (argV m c) (argM m c), fun c => probs (argQ m c) (argK m c) (argM m c),
    Cert.Attention.KernelValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v15_eq, Cert.Attention.Ref.outs_eq, (hagree c).1, (hagree c).2.1,
      (hagree c).2.2.1, (hagree c).2.2.2]
  · rw [(h c).2.1, Cert.ReferenceIdeal.Read.val_main_v14_eq, Cert.Attention.Ref.probs_eq, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
